-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048 : Shape := ⟨2, ![4, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : IVec S4x2048 32) (main_arg2 : FVec F S2048x2048 .f32) (main_arg3 : FVec F S2048 .f32) (main_arg4 : FVec F S2048x2048 .f32) (main_arg5 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_v13 main_v16
-- ==== Kernel.lean ====
abbrev S4x2048x2048 : Shape := ⟨3, ![4, 2048, 2048]⟩
abbrev S4x2048 : Shape := ⟨2, ![4, 2048]⟩
abbrev S2048x2048 : Shape := ⟨2, ![2048, 2048]⟩
abbrev S2048 : Shape := ⟨1, ![2048]⟩
abbrev S8192x2048 : Shape := ⟨2, ![8192, 2048]⟩
abbrev S8192x1 : Shape := ⟨2, ![8192, 1]⟩
abbrev S1x2048 : Shape := ⟨2, ![1, 2048]⟩
abbrev S256x2048 : Shape := ⟨2, ![256, 2048]⟩
abbrev S1024x2048 : Shape := ⟨2, ![1024, 2048]⟩
abbrev S1x1024 : Shape := ⟨2, ![1, 1024]⟩
abbrev S256x1 : Shape := ⟨2, ![256, 1]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S8192x1, .i32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1, .i32⟩
  | .local _ .vmem, ⟨9, _⟩ => ⟨S256x1, .i32⟩
  | .local _ .vmem, ⟨10, _⟩ => ⟨S256x1024, .f32⟩
  | .local _ .vmem, ⟨11, _⟩ => ⟨S256x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x2048_S8192x2048 : S4x2048x2048.ShapeCasts S8192x2048
  shapeCasts_S4x2048_S8192x1 : S4x2048.ShapeCasts S8192x1
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S8192x2048_S4x2048x2048 : S8192x2048.ShapeCasts S4x2048x2048
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .f32 = 32 ∨ (Rect.block (s := S2048x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x2048.size a
  hwx0_2 : ∀ i : grid0.Coords, EltTy.bits .f32 = 32 ∨ (Rect.block (s := S2048x2048) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .i32 = 32 ∨ (Rect.block (s := S8192x1) S256x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x2048.size a
  hwx0_6 : ∀ i : grid0.Coords, EltTy.bits .f32 = 32 ∨ (Rect.block (s := S8192x2048) S256x1024.size (cc0_transform_6 i) (hinb0_6 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4x2048 : Shape := ⟨2, ![4, 2048]⟩
abbrev S2048x2048 : Shape := ⟨2, ![2048, 2048]⟩
abbrev S2048 : Shape := ⟨1, ![2048]⟩
abbrev S1x1x2048 : Shape := ⟨3, ![1, 1, 2048]⟩
abbrev S4x2048x1 : Shape := ⟨3, ![4, 2048, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S4x2048x2048, .f32⟩
  | .hbm, ⟨7, _⟩ => ⟨S1x1x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.ModalityBlend.lean ====
/-
  The function both programs compute, and the law that joins their two spellings.

  A token (p, s) carries a row x[p, s, ·] of 2048 reals and an integer modality flag idx[p, s]. Each of two
  "experts" is an affine map of the row: feature o of expert (W, b) is  Σ_k x[p, s, k] · W[o, k] + b[o].
  With t the text expert's feature, g the image expert's and r the flag read as a real number, one program
  forms  t + r · (g − t)  and the other  t · (1 − r) + g · r.  Over the reals these agree by distributivity;
  over the extended reals distributivity fails at ±∞, so the law is stated for finite t and g (r is an
  integer, hence finite), and a sum of products of finite numbers is shown finite.
-/
import Idealize.ShloMosaic.PureOps.Ideal
import Idealize.ShloMosaic.Lib.ValueIdx

noncomputable section

namespace Cert.ModalityBlend

open Idealize.ShloMosaic Idealize.ShloMosaic.ValueIdx

/-- Feature `o` of one expert at token `(p, s)`: the row of `x` against row `o` of `W`, plus the bias. -/
def expert (x : (⟨3, ![4, 2048, 2048]⟩ : Shape).Idx → EReal) (W : (⟨2, ![2048, 2048]⟩ : Shape).Idx → EReal)
    (b : (⟨1, ![2048]⟩ : Shape).Idx → EReal) (p : Fin 4) (s : Fin 2048) (o : Fin 2048) : EReal :=
  (∑ k : Fin 2048, x (ix3 p s k) * W (ix2 o k)) + b (ix1 o)

/-- The token's modality flag as an extended real: the signed integer the 32-bit word denotes. -/
def flag (idx : (⟨2, ![4, 2048]⟩ : Shape).Idx → BitVec 32) (p : Fin 4) (s : Fin 2048) : EReal :=
  (((idx (ix2 p s)).toInt : ℝ) : EReal)

/-- THE RESULT, index by index: the text expert's feature moved towards the image expert's by the flag. -/
def blend (x : (⟨3, ![4, 2048, 2048]⟩ : Shape).Idx → EReal) (idx : (⟨2, ![4, 2048]⟩ : Shape).Idx → BitVec 32)
    (Wi : (⟨2, ![2048, 2048]⟩ : Shape).Idx → EReal) (bi : (⟨1, ![2048]⟩ : Shape).Idx → EReal)
    (Wt : (⟨2, ![2048, 2048]⟩ : Shape).Idx → EReal) (bt : (⟨1, ![2048]⟩ : Shape).Idx → EReal) :
    (⟨3, ![4, 2048, 2048]⟩ : Shape).Idx → EReal := fun i =>
  expert x Wt bt (i 0) (i 1) (i 2) + flag idx (i 0) (i 1) * (expert x Wi bi (i 0) (i 1) (i 2) - expert x Wt bt (i 0) (i 1) (i 2))

/-- An extended real that is neither infinity is the coercion of a real. -/
theorem exists_real {a : EReal} (h : a ≠ ⊤ ∧ a ≠ ⊥) : ∃ r : ℝ, a = (r : EReal) :=
  ⟨a.toReal, (EReal.coe_toReal h.1 h.2).symm⟩

/-- A finite sum of products of coerced reals is the coercion of the real sum. -/
theorem sum_coe_mul_coe {ι : Type} (s : Finset ι) (a b : ι → ℝ) :
    ∑ k ∈ s, ((a k : ℝ) : EReal) * ((b k : ℝ) : EReal) = ((∑ k ∈ s, a k * b k : ℝ) : EReal) := by
  classical
  induction s using Finset.induction_on with
  | empty => simp
  | insert j s hj ih => rw [Finset.sum_insert hj, Finset.sum_insert hj, ih, ← EReal.coe_mul, ← EReal.coe_add]

/-- An expert's feature of finite inputs is finite: it is the coercion of the real affine form. -/
theorem expert_real (x : (⟨3, ![4, 2048, 2048]⟩ : Shape).Idx → EReal) (W : (⟨2, ![2048, 2048]⟩ : Shape).Idx → EReal)
    (b : (⟨1, ![2048]⟩ : Shape).Idx → EReal) (hx : ∀ i, x i ≠ ⊤ ∧ x i ≠ ⊥) (hW : ∀ i, W i ≠ ⊤ ∧ W i ≠ ⊥)
    (hb : ∀ i, b i ≠ ⊤ ∧ b i ≠ ⊥) (p : Fin 4) (s : Fin 2048) (o : Fin 2048) :
    ∃ r : ℝ, expert x W b p s o = (r : EReal) := by
  choose xr hxr using fun i => exists_real (hx i)
  choose Wr hWr using fun i => exists_real (hW i)
  choose br hbr using fun i => exists_real (hb i)
  refine ⟨(∑ k : Fin 2048, xr (ix3 p s k) * Wr (ix2 o k)) + br (ix1 o), ?_⟩
  unfold expert
  rw [EReal.coe_add, ← sum_coe_mul_coe, hbr]
  exact congrArg (· + _) (Finset.sum_congr rfl fun k _ => by rw [hxr, hWr])

/-- THE LAW over finite values: selecting by complementary weights is moving from `t` towards `g` by `r`. -/
theorem weights_eq_move (t g r : ℝ) :
    (t : EReal) * (1 - (r : EReal)) + (g : EReal) * (r : EReal) = (t : EReal) + (r : EReal) * ((g : EReal) - (t : EReal)) := by
  rw [← EReal.coe_one, ← EReal.coe_sub, ← EReal.coe_sub, ← EReal.coe_mul, ← EReal.coe_mul, ← EReal.coe_mul,
    ← EReal.coe_add, ← EReal.coe_add]
  exact congrArg _ (by ring)

end Cert.ModalityBlend

end
-- ==== Proof.ReferenceBlend.lean ====
/-
  The reference, read at an index. Its last stage at (p, s, o) is
      text(p, s, o) · (1 − r(p, s)) + image(p, s, o) · r(p, s)
  where each expert's feature is the host's contraction of x's last axis against the weight's last axis plus
  the bias broadcast along the token axes, and r is the integer flag converted to a float and broadcast
  along the feature axis. For finite inputs this is the blended value (the law of complementary weights).
-/
import proofs.«125132_j40785009442940_2_alg».proof.Proof.Gen.ReferenceIdeal.Read
import proofs.«125132_j40785009442940_2_alg».proof.Proof.ModalityBlend
import Idealize.ShloMosaic.Lib.IdealHost

noncomputable section

namespace Cert.ReferenceIdeal.RefValue

open Cert.ReferenceIdeal Cert.ReferenceIdeal.Read Cert.ModalityBlend
open Idealize.ShloMosaic Idealize.ShloMosaic.ValueIdx

/-- An integer word converted to a float is, over the extended reals, the signed integer it denotes. -/
theorem sitofp_ideal (b : BitVec 32) : FloatOps.sitofp (F := Ideal) .f32 b = (((b.toInt : ℝ)) : EReal) := rfl

/-- The contraction's left operand index at output (p, s, o) and position k is (p, s, k). -/
theorem lidx_text (i : S4x2048x2048.Idx) (k : Fin 2048) : lidx_main_v4 i k = ix3 (i 0) (i 1) k :=
  funext fun a => Fin.ext (by match a with | ⟨0, _⟩ => rfl | ⟨1, _⟩ => rfl | ⟨2, _⟩ => rfl)
theorem lidx_image (i : S4x2048x2048.Idx) (k : Fin 2048) : lidx_main_v0 i k = ix3 (i 0) (i 1) k :=
  funext fun a => Fin.ext (by match a with | ⟨0, _⟩ => rfl | ⟨1, _⟩ => rfl | ⟨2, _⟩ => rfl)
/-- Its right operand index is (o, k): row o of the weight. -/
theorem ridx_text (i : S4x2048x2048.Idx) (k : Fin 2048) : ridx_main_v4 i k = ix2 (i 2) k :=
  funext fun a => Fin.ext (by match a with | ⟨0, _⟩ => rfl | ⟨1, _⟩ => rfl)
theorem ridx_image (i : S4x2048x2048.Idx) (k : Fin 2048) : ridx_main_v0 i k = ix2 (i 2) k :=
  funext fun a => Fin.ext (by match a with | ⟨0, _⟩ => rfl | ⟨1, _⟩ => rfl)
/-- The bias broadcast along the token axes is read at the feature coordinate. -/
theorem bias_text (i : S4x2048x2048.Idx) : idx_main_v5 (idx_main_v6 i) = ix1 (i 2) :=
  funext fun a => Fin.ext (by match a with | ⟨0, _⟩ => rfl)
theorem bias_image (i : S4x2048x2048.Idx) : idx_main_v1 (idx_main_v2 i) = ix1 (i 2) :=
  funext fun a => Fin.ext (by match a with | ⟨0, _⟩ => rfl)
/-- The flag broadcast along the feature axis is read at the token's coordinates. -/
theorem flag_neg (i : S4x2048x2048.Idx) : idx_main_v9 (idx_main_v12 i) = ix2 (i 0) (i 1) :=
  funext fun a => Fin.ext (by match a with | ⟨0, _⟩ => rfl | ⟨1, _⟩ => rfl)
theorem flag_pos (i : S4x2048x2048.Idx) : idx_main_v9 (idx_main_v14 i) = ix2 (i 0) (i 1) :=
  funext fun a => Fin.ext (by match a with | ⟨0, _⟩ => rfl | ⟨1, _⟩ => rfl)

/-- The reference's result at an index: the two experts' features under complementary weights. -/
theorem result_apply (x0 : S4x2048x2048.Idx → EReal) (x1 : S4x2048.Idx → BitVec 32) (x2 : S2048x2048.Idx → EReal)
    (x3 : S2048.Idx → EReal) (x4 : S2048x2048.Idx → EReal) (x5 : S2048.Idx → EReal) (i : S4x2048x2048.Idx) :
    val_main_v16 (F := Ideal) x0 x1 x2 x3 x4 x5 i
      = expert x0 x4 x5 (i 0) (i 1) (i 2) * (1 - flag x1 (i 0) (i 1)) + expert x0 x2 x3 (i 0) (i 1) (i 2) * flag x1 (i 0) (i 1) := by
  rw [val_main_v16_apply, val_main_v13_apply, val_main_v15_apply, val_main_v7_apply, val_main_v3_apply,
    val_main_v12_apply, val_main_v14_apply, val_main_v11_apply, val_main_v10_apply, val_main_cst_apply,
    val_main_v9_apply, val_main_v8_apply, val_main_v4_apply, val_main_v0_apply,
    val_main_v6_apply, val_main_v5_apply, val_main_v2_apply, val_main_v1_apply]
  simp only [lidx_text, lidx_image, ridx_text, ridx_image, bias_text, bias_image, flag_neg, flag_pos, sitofp_ideal,
    Ideal.addf_def, Ideal.subf_def, Ideal.mulf_def, Ideal.ofBits_def, Ideal.ofBits_one_f32]
  rfl

/-- For finite float inputs the reference's result is the blended value. -/
theorem result_eq_blend (x0 : S4x2048x2048.Idx → EReal) (x1 : S4x2048.Idx → BitVec 32) (x2 : S2048x2048.Idx → EReal)
    (x3 : S2048.Idx → EReal) (x4 : S2048x2048.Idx → EReal) (x5 : S2048.Idx → EReal)
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (h4 : ∀ i, x4 i ≠ ⊤ ∧ x4 i ≠ ⊥) (h5 : ∀ i, x5 i ≠ ⊤ ∧ x5 i ≠ ⊥) :
    val_main_v16 (F := Ideal) x0 x1 x2 x3 x4 x5 = blend x0 x1 x2 x3 x4 x5 := by
  funext i
  rw [result_apply]
  obtain ⟨t, ht⟩ := expert_real x0 x4 x5 h0 h4 h5 (i 0) (i 1) (i 2)
  obtain ⟨g, hg⟩ := expert_real x0 x2 x3 h0 h2 h3 (i 0) (i 1) (i 2)
  unfold blend
  rw [ht, hg]
  exact weights_eq_move t g _

end Cert.ReferenceIdeal.RefValue

end
-- ==== Proof.TileValue.lean ====
/-
  One tile of the kernel. At a grid point the body holds a 256-row block of x, a 1024-row block of each
  weight, the matching 1024 entries of each bias (as a 1×1024 row) and the 256 flags of the rows (as a
  256×1 column). Entry (r, q) of what it stores is
      text + flag(r) · (image − text),
  text  = Σ_k x[r, k] · Wt[q, k] + bt[q]  and  image = Σ_k x[r, k] · Wi[q, k] + bi[q]:
  the matrix product into a zero accumulator contracts the last axis of both operands, a change of float
  format is the identity over the extended reals, the bias row is repeated down the rows and the flag
  column across the columns.
-/
import proofs.«125132_j40785009442940_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.ValueIdx

/-- The left operand's row coordinate is the output's row. -/
theorem lhs_row (j : S256x1024.Idx) (k : dot_S256x2048_S1024x2048_S256x1024_1_1_0_0_n_n.contr.Idx) :
    (dot_S256x2048_S1024x2048_S256x1024_1_1_0_0_n_n.lhsIdx j k 0).val = (j 0).val := by
  unfold DotDims.lhsIdx
  rw [dif_neg (show ¬(0 : Fin S256x2048.rank) ∈ dot_S256x2048_S1024x2048_S256x1024_1_1_0_0_n_n.lhsBatch by decide),
    dif_pos (show (0 : Fin S256x2048.rank) ∈ dot_S256x2048_S1024x2048_S256x1024_1_1_0_0_n_n.lhsNonContracting by decide)]
  rfl
/-- The right operand's row coordinate is the output's column. -/
theorem rhs_row (j : S256x1024.Idx) (k : dot_S256x2048_S1024x2048_S256x1024_1_1_0_0_n_n.contr.Idx) :
    (dot_S256x2048_S1024x2048_S256x1024_1_1_0_0_n_n.rhsIdx j k 0).val = (j 1).val := by
  unfold DotDims.rhsIdx
  rw [dif_neg (show ¬(0 : Fin S1024x2048.rank) ∈ dot_S256x2048_S1024x2048_S256x1024_1_1_0_0_n_n.rhsBatch by decide),
    dif_pos (show (0 : Fin S1024x2048.rank) ∈ dot_S256x2048_S1024x2048_S256x1024_1_1_0_0_n_n.rhsNonContracting by decide)]
  rfl

/-- The matrix product into zero at (r, q): row r of the left operand against row q of the right one. -/
theorem dot_rows (a : FVec Ideal S256x2048 .bf16) (w : FVec Ideal S1024x2048 .bf16) (r : Fin 256) (q : Fin 1024) :
    matmul dot_S256x2048_S1024x2048_S256x1024_1_1_0_0_n_n none a w (constant S256x1024 .f32 0x00000000#32) (ix2 r q)
      = ∑ k : Fin 2048, a (ix2 r k) * w (ix2 q k) := by
  simp only [matmul]
  rw [Ideal.matmul_constant_zero_apply,
    ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 r q)
      ((contrEquiv1 dot_S256x2048_S1024x2048_S256x1024_1_1_0_0_n_n 2048 rfl rfl).symm k) = ix2 r k :=
    funext fun d => Fin.ext (by
      match d with
      | ⟨0, _⟩ => exact lhs_row _ _
      | ⟨1, _⟩ => exact (dot_S256x2048_S1024x2048_S256x1024_1_1_0_0_n_n.lhsIdx_val_of_single rfl _ _).trans hk)
  have er : dot_S256x2048_S1024x2048_S256x1024_1_1_0_0_n_n.rhsIdx (ix2 r q)
      ((contrEquiv1 dot_S256x2048_S1024x2048_S256x1024_1_1_0_0_n_n 2048 rfl rfl).symm k) = ix2 q k :=
    funext fun d => Fin.ext (by
      match d with
      | ⟨0, _⟩ => exact rhs_row _ _
      | ⟨1, _⟩ => exact (dot_S256x2048_S1024x2048_S256x1024_1_1_0_0_n_n.rhsIdx_val_of_single rfl _ _).trans hk)
  rw [el, er]

/-- A 1×1024 row repeated down 256 rows, read at (r, q), is the row's entry q. -/
theorem row_repeated {α : Type} (b : S1x1024.Idx → α) (h : S1x1024.Broadcasts S256x1024) (r : Fin 256) (q : Fin 1024) :
    broadcastTo S256x1024 b h (ix2 r q) = b (ix2 0 q) :=
  broadcastTo_apply b h (ix2 r q) (ix2 0 q) fun d => by
    match d with
    | ⟨0, _⟩ => show 0 = if (1 : Nat) = 1 then 0 else _; rw [if_pos rfl]
    | ⟨1, _⟩ => show q.val = if (1024 : Nat) = 1 then 0 else q.val; rw [if_neg (by decide)]

/-- A 256×1 column repeated across 1024 columns, read at (r, q), is the column's entry r. -/
theorem column_repeated {α : Type} (f : S256x1.Idx → α) (h : S256x1.Broadcasts S256x1024) (r : Fin 256) (q : Fin 1024) :
    broadcastTo S256x1024 f h (ix2 r q) = f (ix2 r 0) :=
  broadcastTo_apply f h (ix2 r q) (ix2 r 0) fun d => by
    match d with
    | ⟨0, _⟩ => show r.val = if (256 : Nat) = 1 then 0 else r.val; rw [if_neg (by decide)]
    | ⟨1, _⟩ => show 0 = if (1 : Nat) = 1 then 0 else _; rw [if_pos rfl]

/-- WHAT THE BODY STORES, at entry (r, q) of the tile. -/
theorem stored_apply (v0 : Vec Ideal S256x2048 .f32) (v3 v5 : Vec Ideal S1024x2048 .f32) (v8 v13 : Vec Ideal S1x1024 .f32)
    (v17 : Vec Ideal S256x1 .i32) (r : Fin 256) (q : Fin 1024) :
    k0_pay1 (F := Ideal) v0 v3 v5 v8 v13 v17 (ix2 r q)
      = ((∑ k : Fin 2048, v0 (ix2 r k) * v5 (ix2 q k)) + v13 (ix2 0 q))
        + ((((v17 (ix2 r 0) : BitVec 32).toInt : ℝ) : EReal))
          * (((∑ k : Fin 2048, v0 (ix2 r k) * v3 (ix2 q k)) + v8 (ix2 0 q))
              - ((∑ k : Fin 2048, v0 (ix2 r k) * v5 (ix2 q k)) + v13 (ix2 0 q))) := by
  unfold k0_pay1
  simp only [shapeCast_self, addf_apply, mulf_apply, subf_apply, dot_rows, row_repeated, column_repeated, truncf_apply,
    sitofp_apply]
  rfl

end Cert.KernelIdeal.Tile

end
-- ==== Proof.FlatLayout.lean ====
/-
  The same result over the flattened token axis. The kernel works on x reshaped to 8192 × 2048 (token
  R = p · 2048 + s), the flags reshaped to a column 8192 × 1 and each bias to a row 1 × 2048, and its output
  is reshaped back to 4 × 2048 × 2048. A reshape keeps the row-major position, so entry (R, o) of the flat
  result is entry (p, s, o) of the blended value, and reshaping the flat result back gives it exactly.
-/
import proofs.«125132_j40785009442940_2_alg».proof.Proof.ModalityBlend
import Idealize.ShloMosaic.Lib.Pipeline.Value

noncomputable section

namespace Cert.ModalityBlend

open Idealize.ShloMosaic Idealize.ShloMosaic.ValueIdx

/-- One expert's feature `o` at flat token `R`: row R of the flattened input against row o of the weight, plus the
    bias row's entry o. -/
def flatExpert (X : (⟨2, ![8192, 2048]⟩ : Shape).Idx → EReal) (W : (⟨2, ![2048, 2048]⟩ : Shape).Idx → EReal)
    (B : (⟨2, ![1, 2048]⟩ : Shape).Idx → EReal) (R : Fin 8192) (o : Fin 2048) : EReal :=
  (∑ k : Fin 2048, X (ix2 R k) * W (ix2 o k)) + B (ix2 0 o)

/-- The flat result at (R, o). -/
def flatAt (X : (⟨2, ![8192, 2048]⟩ : Shape).Idx → EReal) (Fl : (⟨2, ![8192, 1]⟩ : Shape).Idx → BitVec 32)
    (Wi : (⟨2, ![2048, 2048]⟩ : Shape).Idx → EReal) (Bi : (⟨2, ![1, 2048]⟩ : Shape).Idx → EReal)
    (Wt : (⟨2, ![2048, 2048]⟩ : Shape).Idx → EReal) (Bt : (⟨2, ![1, 2048]⟩ : Shape).Idx → EReal)
    (R : Fin 8192) (o : Fin 2048) : EReal :=
  flatExpert X Wt Bt R o + ((((Fl (ix2 R 0)).toInt : ℝ)) : EReal) * (flatExpert X Wi Bi R o - flatExpert X Wt Bt R o)

/-- THE FLAT RESULT as one array over the 8192 × 2048 layout. -/
def flatBlend (X : (⟨2, ![8192, 2048]⟩ : Shape).Idx → EReal) (Fl : (⟨2, ![8192, 1]⟩ : Shape).Idx → BitVec 32)
    (Wi : (⟨2, ![2048, 2048]⟩ : Shape).Idx → EReal) (Bi : (⟨2, ![1, 2048]⟩ : Shape).Idx → EReal)
    (Wt : (⟨2, ![2048, 2048]⟩ : Shape).Idx → EReal) (Bt : (⟨2, ![1, 2048]⟩ : Shape).Idx → EReal) :
    (⟨2, ![8192, 2048]⟩ : Shape).Idx → EReal := fun j => flatAt X Fl Wi Bi Wt Bt (j 0) (j 1)

/-- The flat token of (p, s). -/
def token (p : Fin 4) (s : Fin 2048) : Fin 8192 := ⟨p.val * 2048 + s.val, by have := p.isLt; have := s.isLt; omega⟩

/-- An expert over the reshaped operands at the flat token of (p, s) is the expert at (p, s). -/
theorem flatExpert_reshaped (x : (⟨3, ![4, 2048, 2048]⟩ : Shape).Idx → EReal) (W : (⟨2, ![2048, 2048]⟩ : Shape).Idx → EReal)
    (b : (⟨1, ![2048]⟩ : Shape).Idx → EReal)
    (h0 : (⟨3, ![4, 2048, 2048]⟩ : Shape).ShapeCasts ⟨2, ![8192, 2048]⟩) (h2 : (⟨1, ![2048]⟩ : Shape).ShapeCasts ⟨2, ![1, 2048]⟩)
    (p : Fin 4) (s : Fin 2048) (o : Fin 2048) :
    flatExpert (shapeCast ⟨2, ![8192, 2048]⟩ x h0) W (shapeCast ⟨2, ![1, 2048]⟩ b h2) (token p s) o = expert x W b p s o := by
  unfold flatExpert expert
  rw [shapeCast_apply b h2 (ix2 0 o) (ix1 o) (by
    rw [Shape.rowMajor_val_one, Shape.rowMajor_val_two]; show o.val = 0 * 2048 + o.val; omega)]
  refine congrArg (· + _) (Finset.sum_congr rfl fun k _ => ?_)
  rw [shapeCast_apply x h0 (ix2 (token p s) k) (ix3 p s k) (by
    rw [Shape.rowMajor_val_three, Shape.rowMajor_val_two]; rfl)]

/-- RESHAPING THE FLAT RESULT BACK gives the blended value. -/
theorem unflatten (x : (⟨3, ![4, 2048, 2048]⟩ : Shape).Idx → EReal) (idx : (⟨2, ![4, 2048]⟩ : Shape).Idx → BitVec 32)
    (Wi : (⟨2, ![2048, 2048]⟩ : Shape).Idx → EReal) (bi : (⟨1, ![2048]⟩ : Shape).Idx → EReal)
    (Wt : (⟨2, ![2048, 2048]⟩ : Shape).Idx → EReal) (bt : (⟨1, ![2048]⟩ : Shape).Idx → EReal)
    (h0 : (⟨3, ![4, 2048, 2048]⟩ : Shape).ShapeCasts ⟨2, ![8192, 2048]⟩) (h1 : (⟨2, ![4, 2048]⟩ : Shape).ShapeCasts ⟨2, ![8192, 1]⟩)
    (h2 : (⟨1, ![2048]⟩ : Shape).ShapeCasts ⟨2, ![1, 2048]⟩) (hb : (⟨2, ![8192, 2048]⟩ : Shape).ShapeCasts ⟨3, ![4, 2048, 2048]⟩) :
    shapeCast ⟨3, ![4, 2048, 2048]⟩ (flatBlend (shapeCast ⟨2, ![8192, 2048]⟩ x h0) (shapeCast ⟨2, ![8192, 1]⟩ idx h1) Wi
      (shapeCast ⟨2, ![1, 2048]⟩ bi h2) Wt (shapeCast ⟨2, ![1, 2048]⟩ bt h2)) hb = blend x idx Wi bi Wt bt := by
  funext i
  obtain ⟨p, s, o, rfl⟩ : ∃ (p : Fin 4) (s : Fin 2048) (o : Fin 2048), i = ix3 p s o := ⟨i 0, i 1, i 2, eq_ix3 i⟩
  rw [shapeCast_apply _ hb (ix3 p s o) (ix2 (token p s) o) (by
    rw [Shape.rowMajor_val_two, Shape.rowMajor_val_three]; rfl)]
  show flatAt _ _ _ _ _ _ (token p s) o = expert x Wt bt p s o + flag idx p s * (expert x Wi bi p s o - expert x Wt bt p s o)
  unfold flatAt
  rw [flatExpert_reshaped, flatExpert_reshaped]
  rw [shapeCast_apply idx h1 (ix2 (token p s) 0) (ix2 p s) (by
    rw [Shape.rowMajor_val_two, Shape.rowMajor_val_two]; show p.val * 2048 + s.val = (p.val * 2048 + s.val) * 1 + 0; omega)]
  rfl

end Cert.ModalityBlend

end
-- ==== Proof.TilesCover.lean ====
/-
  From tiles to the array. The grid has 2 × 32 points; point (j, i) works on rows 256·i … 256·i + 255 of the
  flattened input and of the flag column, on rows 1024·j … 1024·j + 1023 of each weight and the same range of
  each bias row, and writes tile (i, j) of the 8192 × 2048 output. An entry (r, q) of that tile sits at array
  position (256·i + r, 1024·j + q), and every operand entry the tile reads sits at the matching position of
  its array, so what a point writes back is the tile of ONE array-wide function, the flat result. The 64
  tiles cover the output, hence the output array ends holding the flat result.
-/
import proofs.«125132_j40785009442940_2_alg».proof.Proof.Gen.KernelIdeal.Frame
import proofs.«125132_j40785009442940_2_alg».proof.Proof.TileValue
import proofs.«125132_j40785009442940_2_alg».proof.Proof.FlatLayout
import Idealize.ShloMosaic.Lib.Pipeline.Value

noncomputable section

namespace Cert.KernelIdeal.Region

open Cert.KernelIdeal Cert.KernelIdeal.Gen Cert.ModalityBlend
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What the region's output array is to end holding: the flat result of the arrays as the region finds them. -/
abbrev flatOf (c : Dev nD) : S8192x2048.Idx → EReal :=
  flatBlend (V m c main_v0) (V m c main_v1) (V m c main_arg2) (V m c main_v2) (V m c main_arg4) (V m c main_v3)

/-- A stored entry whose operand entries are the flat arrays' entries at the matching positions is the flat
    result's entry there. -/
theorem stored_is_flat (X : S8192x2048.Idx → EReal) (Fl : S8192x1.Idx → BitVec 32) (Wi : S2048x2048.Idx → EReal)
    (Bi : S1x2048.Idx → EReal) (Wt : S2048x2048.Idx → EReal) (Bt : S1x2048.Idx → EReal)
    (v0 : Vec Ideal S256x2048 .f32) (v3 v5 : Vec Ideal S1024x2048 .f32) (v8 v13 : Vec Ideal S1x1024 .f32)
    (v17 : Vec Ideal S256x1 .i32) (R : Fin 8192) (o : Fin 2048) (r : Fin 256) (q : Fin 1024)
    (e0 : ∀ k : Fin 2048, v0 (ix2 r k) = X (ix2 R k))
    (e3 : ∀ k : Fin 2048, v3 (ix2 q k) = Wi (ix2 o k)) (e5 : ∀ k : Fin 2048, v5 (ix2 q k) = Wt (ix2 o k))
    (e8 : v8 (ix2 0 q) = Bi (ix2 0 o)) (e13 : v13 (ix2 0 q) = Bt (ix2 0 o)) (e17 : v17 (ix2 r 0) = Fl (ix2 R 0)) :
    k0_pay1 (F := Ideal) v0 v3 v5 v8 v13 v17 (ix2 r q) = flatAt X Fl Wi Bi Wt Bt R o := by
  rw [Tile.stored_apply]
  unfold flatAt flatExpert
  simp only [e0, e3, e5, e8, e13, e17]

/-- The printed index maps over the 64 grid points: the input blocks sit beside the output tile's row block or
    column block, and the tile's block coordinates stay in range. -/
theorem index_maps : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (1 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = win0_6.index t (0 : Fin 2) ∧ win0_5.index t (1 : Fin 2) = 0
    ∧ win0_6.index t (0 : Fin 2) ≤ 31 ∧ win0_6.index t (1 : Fin 2) ≤ 1 :=
  (by decide +kernel : ∀ t : Fin grid0.N, _)

/-- Every tile of the 32 × 2 tiling is some point's. -/
theorem tile_of_point : ∀ (a : Fin 32) (b : Fin 2), ∃ t : Fin cfg0.N, win0_6.index t = ![a.val, b.val] :=
  (by decide +kernel : ∀ (a : Fin 32) (b : Fin 2), ∃ t : Fin grid0.N, win0_6.index t = ![a.val, b.val])

/-- WHAT POINT `t` WRITES BACK is its tile of the flat result. -/
theorem flushed_eq (c : Dev nD) (t : Fin cfg0.N) :
    (dats m 0 c).flushed 6 t = ((cfg0.win 6).blk t).view.read (Elt Ideal) (flatOf m c) := by
  show (cfg0.win 6).cut (grid0.coords t) ((dats m 0 c).after 6 t) = _
  rw [after0_6]
  unfold out0_6
  rw [View.canon_unit_zero zero_offsets]
  simp only [View.ld_unit_zero (S := S256x2048) zero_offsets, View.ld_unit_zero (S := S1024x2048) zero_offsets,
    View.ld_unit_zero (S := S1x1024) zero_offsets, View.ld_unit_zero (S := S256x1) zero_offsets]
  obtain ⟨a0, a1, b0, b1, c0, c1, d0, d1, f0, f1, g0, g1, hi, hj⟩ := index_maps t
  funext y
  obtain ⟨r, q, rfl⟩ : ∃ (r : Fin 256) (q : Fin 1024), y = ix2 r q := ⟨y 0, y 1, eq_ix2 y⟩
  have hr : r.val < 256 := r.isLt
  have hq : q.val < 1024 := q.isLt
  show k0_pay1 (F := Ideal) (iblk m c 0 t) (iblk m c 1 t) (iblk m c 2 t) (iblk m c 3 t) (iblk m c 4 t) (iblk m c 5 t) (ix2 r q)
    = flatAt (V m c main_v0) (V m c main_v1) (V m c main_arg2) (V m c main_v2) (V m c main_arg4) (V m c main_v3)
        ⟨win0_6.index t (0 : Fin 2) * 256 + 1 * r.val, by omega⟩ ⟨win0_6.index t (1 : Fin 2) * 1024 + 1 * q.val, by omega⟩
  refine stored_is_flat (V m c main_v0) (V m c main_v1) (V m c main_arg2) (V m c main_v2) (V m c main_arg4) (V m c main_v3)
    (iblk m c 0 t) (iblk m c 1 t) (iblk m c 2 t) (iblk m c 3 t) (iblk m c 4 t) (iblk m c 5 t) _ _ r q ?_ ?_ ?_ ?_ ?_ ?_
  · intro k
    show V m c main_v0 (((cfg0.win 0).blk t).view.emb (ix2 r k)) = V m c main_v0 _
    refine congrArg _ (funext fun d => Fin.ext ?_)
    match d with
    | ⟨0, _⟩ => show win0_0.index t (0 : Fin 2) * 256 + 1 * r.val = win0_6.index t (0 : Fin 2) * 256 + 1 * r.val; rw [a0]
    | ⟨1, _⟩ => show win0_0.index t (1 : Fin 2) * 2048 + 1 * k.val = k.val; rw [a1]; omega
  · intro k
    show V m c main_arg2 (((cfg0.win 1).blk t).view.emb (ix2 q k)) = V m c main_arg2 _
    refine congrArg _ (funext fun d => Fin.ext ?_)
    match d with
    | ⟨0, _⟩ => show win0_1.index t (0 : Fin 2) * 1024 + 1 * q.val = win0_6.index t (1 : Fin 2) * 1024 + 1 * q.val; rw [b0]
    | ⟨1, _⟩ => show win0_1.index t (1 : Fin 2) * 2048 + 1 * k.val = k.val; rw [b1]; omega
  · intro k
    show V m c main_arg4 (((cfg0.win 2).blk t).view.emb (ix2 q k)) = V m c main_arg4 _
    refine congrArg _ (funext fun d => Fin.ext ?_)
    match d with
    | ⟨0, _⟩ => show win0_2.index t (0 : Fin 2) * 1024 + 1 * q.val = win0_6.index t (1 : Fin 2) * 1024 + 1 * q.val; rw [c0]
    | ⟨1, _⟩ => show win0_2.index t (1 : Fin 2) * 2048 + 1 * k.val = k.val; rw [c1]; omega
  · show V m c main_v2 (((cfg0.win 3).blk t).view.emb (ix2 0 q)) = V m c main_v2 _
    refine congrArg _ (funext fun d => Fin.ext ?_)
    match d with
    | ⟨0, _⟩ => show win0_3.index t (0 : Fin 2) * 1 + 1 * 0 = 0; rw [d0]
    | ⟨1, _⟩ => show win0_3.index t (1 : Fin 2) * 1024 + 1 * q.val = win0_6.index t (1 : Fin 2) * 1024 + 1 * q.val; rw [d1]
  · show V m c main_v3 (((cfg0.win 4).blk t).view.emb (ix2 0 q)) = V m c main_v3 _
    refine congrArg _ (funext fun d => Fin.ext ?_)
    match d with
    | ⟨0, _⟩ => show win0_4.index t (0 : Fin 2) * 1 + 1 * 0 = 0; rw [f0]
    | ⟨1, _⟩ => show win0_4.index t (1 : Fin 2) * 1024 + 1 * q.val = win0_6.index t (1 : Fin 2) * 1024 + 1 * q.val; rw [f1]
  · show V m c main_v1 (((cfg0.win 5).blk t).view.emb (ix2 r 0)) = V m c main_v1 _
    refine congrArg _ (funext fun d => Fin.ext ?_)
    match d with
    | ⟨0, _⟩ => show win0_5.index t (0 : Fin 2) * 256 + 1 * r.val = win0_6.index t (0 : Fin 2) * 256 + 1 * r.val; rw [g0]
    | ⟨1, _⟩ => show win0_5.index t (1 : Fin 2) * 1 + 1 * 0 = 0; rw [g1]

/-- An index of the output array is in point `t`'s tile iff each coordinate is in the tile's range on its axis. -/
theorem mem_tile (t : Fin cfg0.N) (i : S8192x2048.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v4).slice (win0_6.rect t)).set ↔ _
  rw [View.set_slice_whole, Rect.mem_set_unit]
  exact Iff.rfl

/-- The tiles cover the output array: entry (R, o) is in tile (R / 256, o / 1024). -/
theorem tiles_cover (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := tile_of_point ⟨(i 0).val / 256, by omega⟩ ⟨(i 1).val / 1024, by omega⟩
  have q0 : win0_6.index t (0 : Fin 2) = (i 0).val / 256 := congrFun ht 0
  have q1 : win0_6.index t (1 : Fin 2) = (i 1).val / 1024 := congrFun ht 1
  refine ⟨t, flush0_6 t, ?_⟩
  rw [mem_tile]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE OUTPUT ARRAY after the region is the flat result. -/
theorem output_array (c : Dev nD) : (dats m 0 c).arrAt 6 cfg0.N = flatOf m c :=
  (dats m 0 c).arrAt_eq_of_cover 6 (flatOf m c) (fun t _ => flushed_eq m c t) tiles_cover

end Cert.KernelIdeal.Region

end
-- ==== Proof.KernelRun.lean ====
/-
  The kernel program around its region. Before the region four host reshapes flatten the token axes of x and
  of the flags and turn each bias into a row; the two weights reach the region as launched. After it one
  reshape unflattens the region's output. So the program's result is the flat result of the reshaped
  arguments, reshaped back — the blended value of the arguments themselves.
-/
import proofs.«125132_j40785009442940_2_alg».proof.Proof.Gen.KernelIdeal.Frame
import proofs.«125132_j40785009442940_2_alg».proof.Proof.TilesCover
import Idealize.ShloMosaic.PureOps.Ideal
import Idealize.ShloMosaic.Lib.Pipeline.Value
import Idealize.ShloMosaic.Lib.StableHlo.Run

noncomputable section

namespace Cert.KernelIdeal.Region

open Cert.KernelIdeal Cert.KernelIdeal.Gen Cert.ModalityBlend
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The region finds x with its token axes flattened. -/
theorem entry_x (c : Dev nD) : (V m c main_v0 : S8192x2048.Idx → EReal)
    = shapeCast S8192x2048 (m ((c : Thread nD τ).loc main_arg0)) Gen.shapeCasts_S4x2048x2048_S8192x2048 := by
  show StableHlo.after hostOps0 (fun b => m (c, b)) (Proc.devRef .tc main_v0) = _
  after_results
  rfl

/-- It finds the flags as a column over the flattened tokens. -/
theorem entry_flags (c : Dev nD) : (V m c main_v1 : S8192x1.Idx → BitVec 32)
    = shapeCast S8192x1 (m ((c : Thread nD τ).loc main_arg1)) Gen.shapeCasts_S4x2048_S8192x1 := by
  show StableHlo.after hostOps0 (fun b => m (c, b)) (Proc.devRef .tc main_v1) = _
  after_results
  rfl

/-- It finds the image expert's bias as a row. -/
theorem entry_bias_image (c : Dev nD) : (V m c main_v2 : S1x2048.Idx → EReal)
    = shapeCast S1x2048 (m ((c : Thread nD τ).loc main_arg3)) Gen.shapeCasts_S2048_S1x2048 := by
  show StableHlo.after hostOps0 (fun b => m (c, b)) (Proc.devRef .tc main_v2) = _
  after_results
  rfl

/-- It finds the text expert's bias as a row. -/
theorem entry_bias_text (c : Dev nD) : (V m c main_v3 : S1x2048.Idx → EReal)
    = shapeCast S1x2048 (m ((c : Thread nD τ).loc main_arg5)) Gen.shapeCasts_S2048_S1x2048 := by
  show StableHlo.after hostOps0 (fun b => m (c, b)) (Proc.devRef .tc main_v3) = _
  after_results
  rfl

/-- The program's result buffer after the last reshape: the region's output array, unflattened. -/
theorem tail_result (c : Dev nD) : Pipeline.afterTail₀ cfgs (dats m) 0 (V0 m) [hostOps1] c main_v5
    = shapeCast S4x2048x2048 ((dats m 0 c).arrAt 6 cfg0.N) Gen.shapeCasts_S8192x2048_S4x2048x2048 := by
  unfold Pipeline.afterTail₀
  show StableHlo.after hostOps1 _ (Proc.devRef .tc main_v5) = _
  after_results
  exact congrArg (fun A : S8192x2048.Idx → EReal => shapeCast S4x2048x2048 A Gen.shapeCasts_S8192x2048_S4x2048x2048)
    (Pipeline.withArrays_arr spec0 launch0.win.arr_inj c _ _ 6)

/-- THE PROGRAM'S RESULT is the blended value of its arguments. -/
theorem result_eq_blend (c : Dev nD) : Pipeline.afterTail₀ cfgs (dats m) 0 (V0 m) [hostOps1] c main_v5
    = blend (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_result, output_array]
  unfold flatOf
  rw [entry_x, entry_flags, entry_bias_image, entry_bias_text, V_main_arg2, V_main_arg4]
  exact unflatten _ _ _ _ _ _ _ _ _ _

/-- THE RUN, READ: every weakly fair execution of the kernel program ends with its result buffer at the blended
    value of the arguments, and the arguments as launched. The result buffer and the four arguments no window stages
    are read off the lines after the region; the two weights, which windows stage and never write back, off the
    region's own post. -/
theorem run : θ_run defs (onTc (τ := τ) (main (F := Ideal))) ⟨m, fun _ => 0, ρ⟩ (fun r => ∀ c : Dev nD,
      r.2.mem ((c.tc : Thread nD τ).loc main_v5)
        = blend (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v5 (Pipeline.mem_restRefs_of main_v5 (by decide) (by decide))).trans (result_eq_blend m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c)⟩)
    (run_main m ρ)

end Cert.KernelIdeal.Region

end
-- ==== Proof.FiniteInputs.lean ====
/-
  What the precondition says. It is the conjunction, over the five float arguments, of "every entry's
  absolute value is below +∞", each conjunct an all-reduction of entrywise comparisons. Over the extended
  reals |a| = max a (−a), and max a (−a) < +∞ rules out both infinities: so every entry of every float
  argument is a real number. (The integer flags are not constrained, and need not be.)
-/
import proofs.«125132_j40785009442940_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

/-- The rank-0 shape has one index. -/
instance : Subsingleton S_.Idx := ⟨fun a b => funext fun d => d.elim0⟩

/-- The f32 word with all exponent bits set and no fraction denotes +∞. -/
theorem word_inf : Ideal.ofBits .f32 0x7F800000#32 = ⊤ := by simp [Ideal.ofBits, Ideal.ieee]

/-- An extended real whose absolute value compares below +∞ is neither infinity. -/
theorem finite_of_abs_lt (a : EReal) (h : Ideal.cmp .olt (max a (-a)) ⊤ = 1#1) : a ≠ ⊤ ∧ a ≠ ⊥ := by
  have hlt : max a (-a) < ⊤ := by
    by_contra hn
    simp [Ideal.cmp, hn] at h
  constructor
  · rintro rfl; simp at hlt
  · rintro rfl; simp at hlt

/-- One conjunct: if the all-reduction of "|entry| < +∞" is true, every entry is finite. -/
theorem finite_of_all {s : Shape} {axes : List (Fin s.rank)} (x : s.Idx → EReal)
    (hb : S_.BroadcastsInDim s (![] : Fin 0 → Fin s.rank)) (hr : s.ReducesTo axes S_) (hS : 0 < S_.numel)
    (e : Host.reduce IntOp.andi
        (cmpf (F := Ideal) (φ := .f32) .olt (Host.absf (F := Ideal) (φ := .f32) x)
          (broadcastInDim s ![] hb (constant (F := Ideal) S_ .f32 0x7F800000#32)))
        (constantI S_ 1 1#1) hr hS ix0 = 1#1) (i : s.Idx) : x i ≠ ⊤ ∧ x i ≠ ⊥ := by
  have hi := Host.reduce_andi_all _ _ hr hS ix0 e i
  change Ideal.cmp .olt (max (x i) (-(x i))) (Ideal.ofBits .f32 0x7F800000#32) = 1#1 at hi
  rw [word_inf] at hi
  exact finite_of_abs_lt (x i) hi

variable [Facts]

/-- THE PRECONDITION DECODED: every entry of x, of both weights and of both biases is a real number. -/
theorem finite_of_pre (a0 : FVec Ideal S4x2048x2048 .f32) (a1 : IVec S4x2048 32) (a2 : FVec Ideal S2048x2048 .f32)
    (a3 : FVec Ideal S2048 .f32) (a4 : FVec Ideal S2048x2048 .f32) (a5 : FVec Ideal S2048 .f32)
    (h : fn (F := Ideal) a0 a1 a2 a3 a4 a5 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) := by
  have h0 := congrFun h ix0
  dsimp only [fn, fn_part1] at h0
  change IntOp.andi _ _ = 1#1 at h0
  obtain ⟨h1, e5⟩ := IntOp.andi_eq_one.mp h0
  change IntOp.andi _ _ = 1#1 at h1
  obtain ⟨h2, e4⟩ := IntOp.andi_eq_one.mp h1
  change IntOp.andi _ _ = 1#1 at h2
  obtain ⟨h3, e3⟩ := IntOp.andi_eq_one.mp h2
  change IntOp.andi _ _ = 1#1 at h3
  obtain ⟨e0, e2⟩ := IntOp.andi_eq_one.mp h3
  exact ⟨finite_of_all a0 _ _ _ e0, finite_of_all a2 _ _ _ e2, finite_of_all a3 _ _ _ e3, finite_of_all a4 _ _ _ e4,
    finite_of_all a5 _ _ _ e5⟩

end Cert.Pre_finite_inputs.Decode

end
-- ==== Proof.lean ====
/-
  Two linear "experts" applied to every token, then a per-token choice between them. With
      text = x · W_textᵀ + b_text,   image = x · W_imageᵀ + b_image,   r = the token's integer flag as a number,
  the kernel computes  text + r · (image − text)  tile by tile on the flattened token axis, and the reference
  text · (1 − r) + image · r  on whole arrays. Over the extended reals a change of float format is the identity
  and a matrix product into zero is the plain sum of products, so each side is the same affine form of the
  inputs; the two spellings of the choice agree by distributivity, which holds because the precondition makes
  every float input — hence each expert's feature — finite, and an integer is finite.

  Modules: ModalityBlend (the function, the law), FlatLayout (the same over the flattened tokens, and back),
  ReferenceBlend (the reference at an index), TileValue (one tile of the kernel), TilesCover (the tiles make up
  the output array), KernelRun (the reshapes around the region; the run), FiniteInputs (the precondition
  decoded). The kernel leaves no rewrite to account for, so the idealization claim is trivial.
-/
import proofs.«125132_j40785009442940_2_alg».proof.Defs
import proofs.«125132_j40785009442940_2_alg».proof.Proof.Gen.Kernel
import proofs.«125132_j40785009442940_2_alg».proof.Proof.Gen.Kernel.Skeleton
import proofs.«125132_j40785009442940_2_alg».proof.Proof.Gen.Kernel.Launch
import proofs.«125132_j40785009442940_2_alg».proof.Proof.Gen.Kernel.Points
import proofs.«125132_j40785009442940_2_alg».proof.Proof.Gen.Kernel.Frame
import proofs.«125132_j40785009442940_2_alg».proof.Proof.Gen.KernelIdeal
import proofs.«125132_j40785009442940_2_alg».proof.Proof.Gen.KernelIdeal.Skeleton
import proofs.«125132_j40785009442940_2_alg».proof.Proof.Gen.KernelIdeal.Launch
import proofs.«125132_j40785009442940_2_alg».proof.Proof.Gen.KernelIdeal.Points
import proofs.«125132_j40785009442940_2_alg».proof.Proof.Gen.KernelIdeal.Frame
import proofs.«125132_j40785009442940_2_alg».proof.Proof.Gen.ReferenceIdeal
import proofs.«125132_j40785009442940_2_alg».proof.Proof.Gen.Pre_finite_inputs
import proofs.«125132_j40785009442940_2_alg».proof.Proof.Gen.ReferenceIdeal.Run
import proofs.«125132_j40785009442940_2_alg».proof.Proof.Gen.ReferenceIdeal.Read
import proofs.«125132_j40785009442940_2_alg».proof.Proof.ReferenceBlend
import proofs.«125132_j40785009442940_2_alg».proof.Proof.KernelRun
import proofs.«125132_j40785009442940_2_alg».proof.Proof.FiniteInputs
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the blended value of the arguments: the kernel by its tiles and reshapes, the reference
    by its stages read at an index and, the inputs being finite, the law of complementary weights. -/
theorem algebraic : Cert.algebraic_KernelIdeal_ReferenceIdeal := by
  intro m ρ m' ρ' hpre hagree
  refine ⟨fun c => Cert.ModalityBlend.blend (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨f0, f2, f3, f4, f5⟩ := Cert.Pre_finite_inputs.Decode.finite_of_pre _ _ _ _ _ _ (hpre c)
  rw [Cert.ReferenceIdeal.Read.val_main_v16_eq, a0, a1, a2, a3, a4, a5]
  exact Cert.ReferenceIdeal.RefValue.result_eq_blend _ _ _ _ _ _ f0 f2 f3 f4 f5

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
